-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x960000 : Shape := ⟨3, ![16, 1, 960000]⟩
abbrev S_ : Shape := ⟨0, ![]⟩

class Facts : Prop where
  bcast_S_S16x1x960000 : S_.BroadcastsInDim S16x1x960000 (![] : Fin 0 → Fin S16x1x960000.rank)
  reducesTo_S16x1x960000_S_d0_1_2 : S16x1x960000.ReducesTo [0, 1, 2] S_
  h_S_ : 0 < S_.numel

variable [Facts]

def fn {F : FTy → Type} [FloatOps F] (main_arg0 : FVec F S16x1x960000 .f32) : IVec S_ 1 :=
  let main_v0 : FVec F S16x1x960000 .f32 := Host.absf main_arg0
  let main_cst : FVec F S_ .f32 := constant S_ .f32 0x7F800000#32
  let main_v1 : FVec F S16x1x960000 .f32 := broadcastInDim S16x1x960000 ![] bcast_S_S16x1x960000 main_cst
  let main_v2 : IVec S16x1x960000 1 := cmpf .olt main_v0 main_v1
  let main_c : IVec S_ 1 := constantI S_ 1 1#1
  let main_v3 : IVec S_ 1 := (fun x v => Host.reduce IntOp.andi x v reducesTo_S16x1x960000_S_d0_1_2 h_S_) main_v2 main_c
  main_v3
-- ==== Kernel.lean ====
abbrev S16x1x960000 : Shape := ⟨3, ![16, 1, 960000]⟩
abbrev S16x6000x160 : Shape := ⟨3, ![16, 6000, 160]⟩
abbrev S16x400x5998 : Shape := ⟨3, ![16, 400, 5998]⟩
abbrev S1x6000x160 : Shape := ⟨3, ![1, 6000, 160]⟩
abbrev S1x400x5998 : Shape := ⟨3, ![1, 400, 5998]⟩
abbrev S6000x160 : Shape := ⟨2, ![6000, 160]⟩
abbrev S5998x160 : Shape := ⟨2, ![5998, 160]⟩
abbrev S160x5998 : Shape := ⟨2, ![160, 5998]⟩
abbrev S1x160x5998 : Shape := ⟨3, ![1, 160, 5998]⟩
abbrev S5998x80 : Shape := ⟨2, ![5998, 80]⟩
abbrev S80x5998 : Shape := ⟨2, ![80, 5998]⟩
abbrev S1x80x5998 : Shape := ⟨3, ![1, 80, 5998]⟩

abbrev nBuf : Space → Nat
  | .hbm => 3
  | .vmem => 4
  | .smem => 0
  | _ => 0

abbrev bufTy : (tb : Table) → Fin (tcTables nBuf tb) → BufTy
  | .hbm, ⟨0, _⟩ => ⟨S16x1x960000, .f32⟩
  | .hbm, ⟨1, _⟩ => ⟨S16x6000x160, .f32⟩
  | .hbm, ⟨2, _⟩ => ⟨S16x400x5998, .f32⟩
  | .local _ .vmem, ⟨0, _⟩ => ⟨S1x6000x160, .f32⟩
  | .local _ .vmem, ⟨1, _⟩ => ⟨S1x6000x160, .f32⟩
  | .local _ .vmem, ⟨2, _⟩ => ⟨S1x400x5998, .f32⟩
  | .local _ .vmem, ⟨3, _⟩ => ⟨S1x400x5998, .f32⟩
  | _, _ => ⟨S16x1x960000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x6000x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x400x5998 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x1x960000_S16x6000x160 : S16x1x960000.ShapeCasts S16x6000x160
  inb_S1x6000x160_S1x6000x160_0_0_0 : ∀ a, (![0, 0, 0] : Fin 3 → Nat) a + S1x6000x160.size a ≤ S1x6000x160.size a
  h_S1x6000x160 : 0 < S1x6000x160.numel
  shapeCasts_S1x6000x160_S6000x160 : S1x6000x160.ShapeCasts S6000x160
  slices_S6000x160_o0_0_S5998x160 : S6000x160.Slices ![0, 0] S5998x160
  transposes_S5998x160_p1_0_S160x5998 : S5998x160.Transposes [1, 0] S160x5998
  inb_S1x400x5998_S1x160x5998_0_0_0 : ∀ a, (![0, 0, 0] : Fin 3 → Nat) a + S1x160x5998.size a ≤ S1x400x5998.size a
  h_S1x160x5998 : 0 < S1x160x5998.numel
  shapeCasts_S1x160x5998_S160x5998 : S1x160x5998.ShapeCasts S160x5998
  shapeCasts_S160x5998_S1x160x5998 : S160x5998.ShapeCasts S1x160x5998
  slices_S6000x160_o1_0_S5998x160 : S6000x160.Slices ![1, 0] S5998x160
  inb_S1x400x5998_S1x160x5998_0_160_0 : ∀ a, (![0, 160, 0] : Fin 3 → Nat) a + S1x160x5998.size a ≤ S1x400x5998.size a
  slices_S6000x160_o2_0_S5998x80 : S6000x160.Slices ![2, 0] S5998x80
  transposes_S5998x80_p1_0_S80x5998 : S5998x80.Transposes [1, 0] S80x5998
  inb_S1x400x5998_S1x80x5998_0_320_0 : ∀ a, (![0, 320, 0] : Fin 3 → Nat) a + S1x80x5998.size a ≤ S1x400x5998.size a
  h_S1x80x5998 : 0 < S1x80x5998.numel
  shapeCasts_S1x80x5998_S80x5998 : S1x80x5998.ShapeCasts S80x5998
  shapeCasts_S80x5998_S1x80x5998 : S80x5998.ShapeCasts S1x80x5998
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x6000x160.size a ≤ S16x6000x160.size a
  hwx0_0 : ∀ i : grid0.Coords, EltTy.bits .f32 = 32 ∨ (Rect.block (s := S16x6000x160) S1x6000x160.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x400x5998.size a ≤ S16x400x5998.size a
  hwx0_1 : ∀ i : grid0.Coords, EltTy.bits .f32 = 32 ∨ (Rect.block (s := S16x400x5998) S1x400x5998.size (cc0_transform_1 i) (hinb0_1 i)).WholeWords (EltTy.packing .f32)

variable [Facts₀]

abbrev win0_0 : Pipeline.Window sig grid0 :=
  Pipeline.Window.ofSpec (Memref.whole main_v0) S1x6000x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x400x5998.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x1x960000 : Shape := ⟨3, ![16, 1, 960000]⟩
abbrev S5998 : Shape := ⟨1, ![5998]⟩
abbrev S1x5998 : Shape := ⟨2, ![1, 5998]⟩
abbrev S_ : Shape := ⟨0, ![]⟩
abbrev S400 : Shape := ⟨1, ![400]⟩
abbrev S400x1 : Shape := ⟨2, ![400, 1]⟩
abbrev S400x5998 : Shape := ⟨2, ![400, 5998]⟩
abbrev S400x5998x1 : Shape := ⟨3, ![400, 5998, 1]⟩
abbrev S400x5998x2 : Shape := ⟨3, ![400, 5998, 2]⟩
abbrev S16x400x5998 : Shape := ⟨3, ![16, 400, 5998]⟩

abbrev nBuf : Space → Nat
  | .hbm => 25
  | .vmem => 0
  | .smem => 0
  | _ => 0

abbrev bufTy : (tb : Table) → Fin (tcTables nBuf tb) → BufTy
  | .hbm, ⟨0, _⟩ => ⟨S16x1x960000, .f32⟩
  | .hbm, ⟨1, _⟩ => ⟨S5998, .i32⟩
  | .hbm, ⟨2, _⟩ => ⟨S1x5998, .i32⟩
  | .hbm, ⟨3, _⟩ => ⟨S_, .i32⟩
  | .hbm, ⟨4, _⟩ => ⟨S1x5998, .i32⟩
  | .hbm, ⟨5, _⟩ => ⟨S1x5998, .i32⟩
  | .hbm, ⟨6, _⟩ => ⟨S400, .i32⟩
  | .hbm, ⟨7, _⟩ => ⟨S400x1, .i32⟩
  | .hbm, ⟨8, _⟩ => ⟨S400x5998, .i32⟩
  | .hbm, ⟨9, _⟩ => ⟨S400x5998, .i32⟩
  | .hbm, ⟨10, _⟩ => ⟨S400x5998, .i32⟩
  | .hbm, ⟨11, _⟩ => ⟨S_, .i32⟩
  | .hbm, ⟨12, _⟩ => ⟨S400x5998, .i32⟩
  | .hbm, ⟨13, _⟩ => ⟨S400x5998, .i1⟩
  | .hbm, ⟨14, _⟩ => ⟨S_, .i32⟩
  | .hbm, ⟨15, _⟩ => ⟨S400x5998, .i32⟩
  | .hbm, ⟨16, _⟩ => ⟨S400x5998, .i32⟩
  | .hbm, ⟨17, _⟩ => ⟨S400x5998, .i32⟩
  | .hbm, ⟨18, _⟩ => ⟨S_, .i32⟩
  | .hbm, ⟨19, _⟩ => ⟨S400x5998, .i32⟩
  | .hbm, ⟨20, _⟩ => ⟨S400x5998, .i32⟩
  | .hbm, ⟨21, _⟩ => ⟨S400x5998x1, .i32⟩
  | .hbm, ⟨22, _⟩ => ⟨S400x5998x1, .i32⟩
  | .hbm, ⟨23, _⟩ => ⟨S400x5998x2, .i32⟩
  | .hbm, ⟨24, _⟩ => ⟨S16x400x5998, .f32⟩
  | _, _ => ⟨S16x1x960000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]

class Facts₀ : Prop where
  bcast_S5998_S1x5998_1 : S5998.BroadcastsInDim S1x5998 (![1] : Fin 1 → Fin S1x5998.rank)
  bcast_S_S1x5998 : S_.BroadcastsInDim S1x5998 (![] : Fin 0 → Fin S1x5998.rank)
  bcast_S400_S400x1_0 : S400.BroadcastsInDim S400x1 (![0] : Fin 1 → Fin S400x1.rank)
  bcast_S1x5998_S400x5998_0_1 : S1x5998.BroadcastsInDim S400x5998 (![0, 1] : Fin 2 → Fin S400x5998.rank)
  bcast_S400x1_S400x5998_0_1 : S400x1.BroadcastsInDim S400x5998 (![0, 1] : Fin 2 → Fin S400x5998.rank)
  bcast_S_S400x5998 : S_.BroadcastsInDim S400x5998 (![] : Fin 0 → Fin S400x5998.rank)
  bcast_S400x5998_S400x5998x1_0_1 : S400x5998.BroadcastsInDim S400x5998x1 (![0, 1] : Fin 2 → Fin S400x5998x1.rank)
  concatenates_S400x5998x1_S400x5998x1_S400x5998x2_d2 : Shape.Concatenates [S400x5998x1, S400x5998x1] S400x5998x2 2
  gather_S16x1x960000_S400x5998x2_S16x400x5998_0_12_n_n_12_2_1611_wf : GatherDims.WF S16x1x960000 S400x5998x2 S16x400x5998 [0] [1, 2] [] [1, 2] [] 2 ![16, 1, 1]

variable [Facts₀]

def gather_S16x1x960000_S400x5998x2_S16x400x5998_0_12_n_n_12_2_1611 : GatherDims S16x1x960000 S400x5998x2 S16x400x5998 where
  offsetDims := [0]
  collapsedSliceDims := [1, 2]
  operandBatchingDims := []
  startIndicesBatchingDims := []
  startIndexMap := [1, 2]
  indexVectorDim := 2
  sliceSizes := ![16, 1, 1]
  wf := gather_S16x1x960000_S400x5998x2_S16x400x5998_0_12_n_n_12_2_1611_wf

class Facts : Prop extends Facts₀ where

variable [Facts]
-- ==== Proof.Frames.lean ====
/-
  The framing function: a signal of 960000 samples per batch row, cut into 5998 overlapping frames of 400
  samples that start every 160 samples. Entry (b, i, t) of the framed array is sample 160·t + i of row b.
  The last frame ends at sample 160·5997 + 399 = 959919, inside the signal, so every position is a sample
  of the signal and no entry is invented.

  The same position is reached through the signal cut into 6000 chunks of 160 samples: writing i = 160·a + r
  with r < 160, sample 160·t + i is sample r of chunk t + a.
-/
import Idealize.ShloMosaic.PureOps.Ideal
import Idealize.ShloMosaic.Lib.ValueIdx

noncomputable section

namespace Frames

open Idealize.ShloMosaic Idealize.ShloMosaic.ValueIdx

/-- The signal: 16 rows, one channel, 960000 samples. -/
abbrev Sig : Shape := ⟨3, ![16, 1, 960000]⟩
/-- The framed signal: 16 rows, 400 samples in a frame, 5998 frames. -/
abbrev Framed : Shape := ⟨3, ![16, 400, 5998]⟩

/-- The three coordinates of a rank-3 index are below the three extents, written as the extents themselves. -/
theorem lt0 {n0 n1 n2 : Nat} (j : (⟨3, ![n0, n1, n2]⟩ : Shape).Idx) : (j 0).val < n0 := (j 0).isLt
theorem lt1 {n0 n1 n2 : Nat} (j : (⟨3, ![n0, n1, n2]⟩ : Shape).Idx) : (j 1).val < n1 := (j 1).isLt
theorem lt2 {n0 n1 n2 : Nat} (j : (⟨3, ![n0, n1, n2]⟩ : Shape).Idx) : (j 2).val < n2 := (j 2).isLt

/-- Sample i of frame t is a sample of the signal. -/
theorem pos_lt {i t : Nat} (hi : i < 400) (ht : t < 5998) : 160 * t + i < 960000 := by omega

/-- The position in the signal of entry (b, i, t) of the framed array: row b, the one channel, sample 160·t + i. -/
abbrev pos (j : Framed.Idx) : Sig.Idx :=
  ix3 (⟨(j 0).val, lt0 j⟩ : Fin 16) (0 : Fin 1) (⟨160 * (j 2).val + (j 1).val, pos_lt (lt1 j) (lt2 j)⟩ : Fin 960000)

/-- The framed signal, entry by entry. -/
def framed {α : Type} (x : Sig.Idx → α) : Framed.Idx → α := fun j => x (pos j)

theorem framed_apply {α : Type} (x : Sig.Idx → α) (j : Framed.Idx) : framed x j = x (pos j) := rfl

end Frames

end
-- ==== Proof.GatherRead.lean ====
/-
  A gather of single samples, read at an index.

  The start indices hold, for every entry (i, t) of a frame array, a pair (channel, sample). The gather keeps
  the whole row axis (its one offset axis) and collapses the channel and sample axes, so entry (b, i, t) of the
  result is the signal at row b, at the channel the pair names clamped into the one channel there is, and at the
  sample the pair names, read as a signed integer and clamped into the signal's 960000 samples.

  Then the start word itself: 160·t + i computed in 32 bits from two counters never overflows and is never
  negative (it is at most 959919), so the wrap of negative positions leaves it alone and, read as a signed integer, it
  is the natural number 160·t + i, which the clamp leaves alone too.
-/
import Idealize.ShloMosaic.Lib.ValueIdx
import proofs.«131722_j5695126634849_2_alg».proof.Proof.Frames

noncomputable section

namespace Frames

open Idealize.ShloMosaic Idealize.ShloMosaic.ValueIdx

/-- The start indices: a pair (channel, sample) for every sample i of every frame t. -/
abbrev Starts : Shape := ⟨3, ![400, 5998, 2]⟩

/-- The gather's dimension numbers: the row axis is the one offset axis, the channel and sample axes are collapsed
    and are the two axes the start index names, its two components lying along the last axis of the start indices. -/
abbrev frameDims (wf : GatherDims.WF Sig Starts Framed [0] [1, 2] [] [1, 2] [] 2 ![16, 1, 1]) :
    GatherDims Sig Starts Framed where
  offsetDims := [0]
  collapsedSliceDims := [1, 2]
  operandBatchingDims := []
  startIndicesBatchingDims := []
  startIndexMap := [1, 2]
  indexVectorDim := 2
  sliceSizes := ![16, 1, 1]
  wf := wf

/-- Where entry (b, i, t) of the result finds component c of its start index: at (i, t, c). -/
abbrev startAt (j : Framed.Idx) (c : Fin 2) : Starts.Idx :=
  ix3 (⟨(j 1).val, lt1 j⟩ : Fin 400) (⟨(j 2).val, lt2 j⟩ : Fin 5998) c

/-- THE GATHER READ AT (b, i, t): the signal at row b, channel 0, and the sample the start index's second component
    names, read signed and clamped into [0, 959999]. -/
theorem gather_frames_apply {α : Type} {w : Nat}
    (wf : GatherDims.WF Sig Starts Framed [0] [1, 2] [] [1, 2] [] 2 ![16, 1, 1])
    (x : Sig.Idx → α) (idx : IVec Starts w) (j : Framed.Idx) :
    Host.gather (frameDims wf) x idx j
      = x (ix3 (⟨(j 0).val, lt0 j⟩ : Fin 16) (0 : Fin 1)
            (⟨min (idx (startAt j 1)).toInt.toNat 959999, by omega⟩ : Fin 960000)) := by
  unfold Host.gather
  congr 1
  funext a
  refine Fin.ext ?_
  show (frameDims wf).start j idx a + (frameDims wf).batchCoord j a + (frameDims wf).offCoord j a = _
  rw [GatherDims.batchCoord_eq_zero _ _ _ List.not_mem_nil, Nat.add_zero]
  rcases (by decide : ∀ a : Fin 3, a = 0 ∨ a = 1 ∨ a = 2) a with rfl | rfl | rfl
  · -- the row axis: no start component, the result's own row coordinate as the offset
    have hs : (frameDims wf).start j idx 0 = 0 := by
      unfold GatherDims.start
      rw [dif_neg (show ¬ (0 : Fin 3) ∈ ([1, 2] : List (Fin 3)) from by decide)]
    have ho : (frameDims wf).offCoord j 0 = (j 0).val := by
      unfold GatherDims.offCoord
      rw [dif_pos (((frameDims wf).mem_sKept 0).2
        ⟨show ¬ (0 : Fin 3) ∈ ([1, 2] : List (Fin 3)) from by decide, List.not_mem_nil⟩)]
      rfl
    rw [hs, ho, Nat.zero_add]
  · -- the channel axis: collapsed, the start clamped into the one channel
    have hs : (frameDims wf).start j idx 1 = 0 := by
      unfold GatherDims.start
      rw [dif_pos (show (1 : Fin 3) ∈ ([1, 2] : List (Fin 3)) from by decide)]
      exact Nat.min_zero _
    rw [hs, GatherDims.offCoord_eq_zero _ _ _
      (fun h => (((frameDims wf).mem_sKept 1).mp h).1 (show (1 : Fin 3) ∈ ([1, 2] : List (Fin 3)) from by decide))]
    rfl
  · -- the sample axis: collapsed, the start the second component clamped into the signal
    rw [GatherDims.offCoord_eq_zero _ _ _
      (fun h => (((frameDims wf).mem_sKept 2).mp h).1 (show (2 : Fin 3) ∈ ([1, 2] : List (Fin 3)) from by decide)),
      Nat.add_zero]
    unfold GatherDims.start
    rw [dif_pos (show (2 : Fin 3) ∈ ([1, 2] : List (Fin 3)) from by decide)]
    have hsi : (frameDims wf).siIdx j ⟨List.idxOf (2 : Fin 3) (frameDims wf).startIndexMap,
        List.idxOf_lt_length_iff.2 (show (2 : Fin 3) ∈ ([1, 2] : List (Fin 3)) from by decide)⟩ = startAt j 1 := by
      funext b; refine Fin.ext ?_
      match b with
      | ⟨0, _⟩ => rfl
      | ⟨1, _⟩ => rfl
      | ⟨2, _⟩ => rfl
    rw [hsi]
    rfl

/-! ## The start word -/

/-- 160·t + i in 32 bits, from the two counters, is the word of the natural number. -/
theorem pos_word (i t : Nat) (hi : i < 400) (ht : t < 5998) :
    IntOp.addi (IntOp.muli (BitVec.ofNat 32 t) 160#32) (BitVec.ofNat 32 i) = BitVec.ofNat 32 (160 * t + i) := by
  unfold IntOp.addi IntOp.muli
  apply BitVec.eq_of_toNat_eq
  simp only [BitVec.toNat_add, BitVec.toNat_mul, BitVec.toNat_ofNat]
  omega

/-- A word below 2^31 read as a signed integer is the natural number. -/
theorem toInt_small (n : Nat) (hn : n < 2 ^ 31) : (BitVec.ofNat 32 n).toInt = (n : Int) := by
  have h : (BitVec.ofNat 32 n).toNat = n := by
    rw [BitVec.toNat_ofNat]; exact Nat.mod_eq_of_lt (by omega)
  rw [BitVec.toInt_eq_toNat_of_lt (by rw [h]; omega), h]

/-- The position word is not negative, so the wrap of negative positions keeps it. -/
theorem wrap_word (i t : Nat) (hi : i < 400) (ht : t < 5998) :
    Scalar.select (IntOp.cmpi .slt (BitVec.ofNat 32 (160 * t + i)) 0#32)
        (IntOp.addi (BitVec.ofNat 32 (160 * t + i)) 960000#32) (BitVec.ofNat 32 (160 * t + i))
      = BitVec.ofNat 32 (160 * t + i) := by
  have hlt : (BitVec.ofNat 32 (160 * t + i)).slt 0#32 = false := by
    rw [BitVec.slt_eq_decide, toInt_small _ (by omega), BitVec.toInt_zero]
    exact decide_eq_false (by omega)
  unfold IntOp.cmpi
  simp only [hlt]
  exact select_zero _ _

/-- Read signed and clamped into the signal, the position word is the position. -/
theorem clamp_word (i t : Nat) (hi : i < 400) (ht : t < 5998) :
    min (BitVec.ofNat 32 (160 * t + i)).toInt.toNat 959999 = 160 * t + i := by
  rw [toInt_small _ (by omega), Int.toNat_natCast]
  omega

end Frames

end
-- ==== Proof.ReferenceFrames.lean ====
/-
  The reference computes the framing function.

  Its start indices are built from two counters: for sample i of frame t the pair (0, 160·t + i), the second
  component passed through the wrap of negative positions, which keeps it because it is not negative. The gather
  then reads the signal at row b, channel 0 and that position, which the clamp keeps because it is inside the signal.
-/
import proofs.«131722_j5695126634849_2_alg».proof.Proof.Gen.ReferenceIdeal.Read
import proofs.«131722_j5695126634849_2_alg».proof.Proof.GatherRead

noncomputable section

namespace Cert.ReferenceIdeal.RefFrames

open Cert.ReferenceIdeal Cert.ReferenceIdeal.Gen Cert.ReferenceIdeal.Read
open Idealize.ShloMosaic Idealize.ShloMosaic.ValueIdx Frames

variable {F : FTy → Type} [FloatOps F]

/-- 160·t + i as the reference computes it: the frame counter times 160 plus the sample counter, in 32 bits. -/
theorem position_word (i : Fin 400) (t : Fin 5998) :
    val_main_v8 (F := F) (ix2 i t) = BitVec.ofNat 32 (160 * t.val + i.val) := by
  rw [val_main_v8_apply, val_main_v6_apply, val_main_v7_apply, val_main_v3_apply, val_main_v1_apply,
    val_main_v2_apply, val_main_v5_apply]
  exact pos_word i.val t.val i.isLt t.isLt

/-- The wrap of negative positions keeps it. -/
theorem wrapped_word (i : Fin 400) (t : Fin 5998) :
    val_main_v13 (F := F) (ix2 i t) = BitVec.ofNat 32 (160 * t.val + i.val) := by
  rw [val_main_v13_apply, val_main_v10_apply, val_main_v12_apply, position_word, val_main_v9_apply,
    val_main_v11_apply]
  exact wrap_word i.val t.val i.isLt t.isLt

/-- The second component of the start index of entry (b, i, t) is that word: the pair's second half. -/
theorem start_word (j : Framed.Idx) :
    val_main_v18 (F := F) (startAt j 1) = BitVec.ofNat 32 (160 * (j 2).val + (j 1).val) := by
  unfold val_main_v18
  rw [concatenate_pair_apply_right (2 : Fin 3) (val_main_v16 (F := F)) (val_main_v17 (F := F))
    concatenates_S400x5998x1_S400x5998x1_S400x5998x2_d2 (startAt j 1) rfl rfl
    (ix3 (⟨(j 1).val, lt1 j⟩ : Fin 400) (⟨(j 2).val, lt2 j⟩ : Fin 5998) (0 : Fin 1))
    (fun b hb => match b with
      | ⟨0, _⟩ => rfl
      | ⟨1, _⟩ => rfl
      | ⟨2, _⟩ => absurd rfl hb)
    rfl]
  rw [val_main_v17_apply]
  have e : idx_main_v17 (ix3 (⟨(j 1).val, lt1 j⟩ : Fin 400) (⟨(j 2).val, lt2 j⟩ : Fin 5998) (0 : Fin 1))
      = ix2 (⟨(j 1).val, lt1 j⟩ : Fin 400) (⟨(j 2).val, lt2 j⟩ : Fin 5998) := by
    funext a; match a with | ⟨0, _⟩ => rfl | ⟨1, _⟩ => rfl
  rw [e]
  exact wrapped_word _ _

/-- THE REFERENCE IS THE FRAMING FUNCTION: entry (b, i, t) of its result is sample 160·t + i of row b. -/
theorem reference_eq (x : Sig.Idx → Elt F .f32) : val_main_v19 (F := F) x = framed x := by
  funext j
  show Host.gather (frameDims Facts₀.gather_S16x1x960000_S400x5998x2_S16x400x5998_0_12_n_n_12_2_1611_wf) x
    (val_main_v18 (F := F)) j = x (pos j)
  rw [gather_frames_apply]
  congr 1
  funext a
  refine Fin.ext ?_
  match a with
  | ⟨0, _⟩ => rfl
  | ⟨1, _⟩ => rfl
  | ⟨2, _⟩ =>
    show min (val_main_v18 (F := F) (startAt j 1)).toInt.toNat 959999 = 160 * (j 2).val + (j 1).val
    rw [start_word]
    exact clamp_word (j 1).val (j 2).val (lt1 j) (lt2 j)

end Cert.ReferenceIdeal.RefFrames

end
-- ==== Proof.BlockRead.lean ====
/-
  What the body leaves in its output block, entry by entry.

  The body holds one batch row of the signal as 6000 chunks of 160 samples. For a = 0, 1, 2 it takes the chunks
  a … a + 5997 (for a = 2 only their first 80 samples), transposes them, and stores the result at rows 160·a … of a
  block of 400 rows and 5998 columns. So row 160·a + r, column t of the block is sample r of chunk t + a: entry
  (i, t) is sample i mod 160 of chunk t + i / 160. The three stores fill rows 0–159, 160–319 and 320–399, the whole
  block, so nothing of what the buffer held before is left.
-/
import proofs.«131722_j5695126634849_2_alg».proof.Proof.Gen.KernelIdeal.Frame
import Idealize.ShloMosaic.Lib.Pipeline.Value
import Idealize.ShloMosaic.Lib.ValueIdx
import proofs.«131722_j5695126634849_2_alg».proof.Proof.Frames

set_option maxRecDepth 16384

noncomputable section

namespace Cert.KernelIdeal.Block

open Cert.KernelIdeal Cert.KernelIdeal.Gen
open Idealize.ShloMosaic Idealize.ShloMosaic.TcCoe Idealize.SL.Sem Idealize.ShloMosaic.ValueIdx Frames

variable {F : FTy → Type} [FloatOps F]

/-! ## Each store's value at an index -/

/-- Rows 0–159: row r, column t is sample r of chunk t. -/
theorem rows0_apply (x0 : Vec F S1x6000x160 .f32) (x : S1x160x5998.Idx) :
    k0_pay2 x0 x = x0 (ix3 (0 : Fin 1) (⟨(x 2).val + 0, by have := lt2 x; omega⟩ : Fin 6000) (⟨(x 1).val, lt1 x⟩ : Fin 160)) := by
  have h0 : (x 0).val < 1 := lt0 x
  have h1 : (x 1).val < 160 := lt1 x
  have h2 : (x 2).val < 5998 := lt2 x
  unfold k0_pay2 k0_pay1
  refine (shapeCast_apply _ _ x (ix2 (⟨(x 1).val, h1⟩ : Fin 160) (⟨(x 2).val, h2⟩ : Fin 5998))
    (by rw [Shape.rowMajor_val_two, Shape.rowMajor_val_three]
        show (x 1).val * 5998 + (x 2).val = ((x 0).val * 160 + (x 1).val) * 5998 + (x 2).val
        omega)).trans ?_
  refine (transpose_apply _ _ _ _ (ix2 (⟨(x 2).val, h2⟩ : Fin 5998) (⟨(x 1).val, h1⟩ : Fin 160))
    (fun b => match b with | ⟨0, _⟩ => rfl | ⟨1, _⟩ => rfl)).trans ?_
  refine (extractStridedSlice_apply _ _ _ _ (ix2 (⟨(x 2).val + 0, by omega⟩ : Fin 6000) (⟨(x 1).val, h1⟩ : Fin 160))
    (fun a => match a with
      | ⟨0, _⟩ => by show (x 2).val + 0 = 0 + (x 2).val; omega
      | ⟨1, _⟩ => by show (x 1).val = 0 + (x 1).val; omega)).trans ?_
  exact shapeCast_apply _ _ _ _
    (by rw [Shape.rowMajor_val_three, Shape.rowMajor_val_two]
        show (0 * 6000 + ((x 2).val + 0)) * 160 + (x 1).val = ((x 2).val + 0) * 160 + (x 1).val
        omega)

/-- Rows 160–319: row 160 + r, column t is sample r of chunk t + 1. -/
theorem rows1_apply (x0 : Vec F S1x6000x160 .f32) (x : S1x160x5998.Idx) :
    k0_pay3 x0 x = x0 (ix3 (0 : Fin 1) (⟨(x 2).val + 1, by have := lt2 x; omega⟩ : Fin 6000) (⟨(x 1).val, lt1 x⟩ : Fin 160)) := by
  have h0 : (x 0).val < 1 := lt0 x
  have h1 : (x 1).val < 160 := lt1 x
  have h2 : (x 2).val < 5998 := lt2 x
  unfold k0_pay3 k0_pay1
  refine (shapeCast_apply _ _ x (ix2 (⟨(x 1).val, h1⟩ : Fin 160) (⟨(x 2).val, h2⟩ : Fin 5998))
    (by rw [Shape.rowMajor_val_two, Shape.rowMajor_val_three]
        show (x 1).val * 5998 + (x 2).val = ((x 0).val * 160 + (x 1).val) * 5998 + (x 2).val
        omega)).trans ?_
  refine (transpose_apply _ _ _ _ (ix2 (⟨(x 2).val, h2⟩ : Fin 5998) (⟨(x 1).val, h1⟩ : Fin 160))
    (fun b => match b with | ⟨0, _⟩ => rfl | ⟨1, _⟩ => rfl)).trans ?_
  refine (extractStridedSlice_apply _ _ _ _ (ix2 (⟨(x 2).val + 1, by omega⟩ : Fin 6000) (⟨(x 1).val, h1⟩ : Fin 160))
    (fun a => match a with
      | ⟨0, _⟩ => by show (x 2).val + 1 = 1 + (x 2).val; omega
      | ⟨1, _⟩ => by show (x 1).val = 0 + (x 1).val; omega)).trans ?_
  exact shapeCast_apply _ _ _ _
    (by rw [Shape.rowMajor_val_three, Shape.rowMajor_val_two]
        show (0 * 6000 + ((x 2).val + 1)) * 160 + (x 1).val = ((x 2).val + 1) * 160 + (x 1).val
        omega)

/-- Rows 320–399: row 320 + r, column t is sample r of chunk t + 2, for the 80 samples r that are left of a frame. -/
theorem rows2_apply (x0 : Vec F S1x6000x160 .f32) (x : S1x80x5998.Idx) :
    k0_pay4 x0 x = x0 (ix3 (0 : Fin 1) (⟨(x 2).val + 2, by have := lt2 x; omega⟩ : Fin 6000)
      (⟨(x 1).val, by have := lt1 x; omega⟩ : Fin 160)) := by
  have h0 : (x 0).val < 1 := lt0 x
  have h1 : (x 1).val < 80 := lt1 x
  have h2 : (x 2).val < 5998 := lt2 x
  unfold k0_pay4 k0_pay1
  refine (shapeCast_apply _ _ x (ix2 (⟨(x 1).val, h1⟩ : Fin 80) (⟨(x 2).val, h2⟩ : Fin 5998))
    (by rw [Shape.rowMajor_val_two, Shape.rowMajor_val_three]
        show (x 1).val * 5998 + (x 2).val = ((x 0).val * 80 + (x 1).val) * 5998 + (x 2).val
        omega)).trans ?_
  refine (transpose_apply _ _ _ _ (ix2 (⟨(x 2).val, h2⟩ : Fin 5998) (⟨(x 1).val, h1⟩ : Fin 80))
    (fun b => match b with | ⟨0, _⟩ => rfl | ⟨1, _⟩ => rfl)).trans ?_
  refine (extractStridedSlice_apply _ _ _ _ (ix2 (⟨(x 2).val + 2, by omega⟩ : Fin 6000) (⟨(x 1).val, by omega⟩ : Fin 160))
    (fun a => match a with
      | ⟨0, _⟩ => by show (x 2).val + 2 = 2 + (x 2).val; omega
      | ⟨1, _⟩ => by show (x 1).val = 0 + (x 1).val; omega)).trans ?_
  exact shapeCast_apply _ _ _ _
    (by rw [Shape.rowMajor_val_three, Shape.rowMajor_val_two]
        show (0 * 6000 + ((x 2).val + 2)) * 160 + (x 1).val = ((x 2).val + 2) * 160 + (x 1).val
        omega)

/-! ## The block -/

/-- Where entry (i, t) of the output block reads the input block: sample i mod 160 of chunk t + i / 160. -/
def chunkOf (y : S1x400x5998.Idx) : S1x6000x160.Idx :=
  ix3 (0 : Fin 1) (⟨(y 2).val + (y 1).val / 160, by have := lt1 y; have := lt2 y; omega⟩ : Fin 6000)
    (⟨(y 1).val % 160, Nat.mod_lt _ (by decide)⟩ : Fin 160)

theorem zeros3 : (![0, 0, 0] : Fin 3 → Nat) = fun _ => 0 := funext fun a => by fin_cases a <;> rfl

/-- WHAT THE BODY LEAVES in its output block, for any staging buffers and whatever they held: entry (i, t) is
    sample i mod 160 of chunk t + i / 160 of the input block. -/
theorem out_apply (c : Dev nD) (i : grid0.Coords) (arg1 : Memref sig .tc .vmem S1x6000x160 .f32) (harg1 : arg1.IsWhole)
    (arg2 : Memref sig .tc .vmem S1x400x5998 .f32) (harg2 : arg2.IsWhole) (x0 : Vec F S1x6000x160 .f32)
    (y : S1x400x5998.Idx) :
    out0_A_1 c i arg1 harg1 arg2 harg2 x0 y = x0 (chunkOf y) := by
  unfold out0_A_1
  rw [View.read_writes_apply_eq_canon _ _ y _ (cover0_A_1 c i arg1 harg1 arg2 harg2 x0 y)]
  refine View.canon_apply_of_pieces (fun y => x0 (chunkOf y)) _ ?_ y (cover0_A_1 c i arg1 harg1 arg2 harg2 x0 y)
  unfold kernelRun0_A
  dsimp only
  simp only [View.readAt_eq_ld, harg1.read_unread, View.ld_unit_zero (S := S1x6000x160) zeros3]
  intro p hp x
  rcases List.mem_cons.mp hp with rfl | hp
  · have h1 : (x 1).val < 80 := lt1 x
    refine (rows2_apply x0 x).trans ?_
    show _ = x0 (chunkOf _)
    congr 1; funext a
    match a with
    | ⟨0, _⟩ => rfl
    | ⟨1, _⟩ => apply Fin.ext; show (x 2).val + 2 = (0 + 1 * (x 2).val) + (320 + 1 * (x 1).val) / 160; omega
    | ⟨2, _⟩ => apply Fin.ext; show (x 1).val = (320 + 1 * (x 1).val) % 160; omega
  rcases List.mem_cons.mp hp with rfl | hp
  · have h1 : (x 1).val < 160 := lt1 x
    refine (rows1_apply x0 x).trans ?_
    show _ = x0 (chunkOf _)
    congr 1; funext a
    match a with
    | ⟨0, _⟩ => rfl
    | ⟨1, _⟩ => apply Fin.ext; show (x 2).val + 1 = (0 + 1 * (x 2).val) + (160 + 1 * (x 1).val) / 160; omega
    | ⟨2, _⟩ => apply Fin.ext; show (x 1).val = (160 + 1 * (x 1).val) % 160; omega
  rcases List.mem_cons.mp hp with rfl | hp
  · have h1 : (x 1).val < 160 := lt1 x
    refine (rows0_apply x0 x).trans ?_
    show _ = x0 (chunkOf _)
    congr 1; funext a
    match a with
    | ⟨0, _⟩ => rfl
    | ⟨1, _⟩ => apply Fin.ext; show (x 2).val + 0 = (0 + 1 * (x 2).val) + (0 + 1 * (x 1).val) / 160; omega
    | ⟨2, _⟩ => apply Fin.ext; show (x 1).val = (0 + 1 * (x 1).val) % 160; omega
  nomatch hp

end Cert.KernelIdeal.Block

end
-- ==== Proof.KernelFrames.lean ====
/-
  The kernel computes the framing function.

  The region finds the signal re-laid as 16 rows of 6000 chunks of 160 samples: chunk k, sample r of a row is sample
  160·k + r of that row. Grid point b works on row b alone: its input block is row b's chunks and its output block is
  row b of the framed array. The body leaves in entry (i, t) of the output block sample i mod 160 of chunk t + i / 160,
  which is sample 160·(t + i / 160) + i mod 160 = 160·t + i of the row: the framing function's entry (b, i, t). The 16
  output blocks are the 16 rows of the framed array, so together they are the whole array.
-/
import proofs.«131722_j5695126634849_2_alg».proof.Proof.Gen.KernelIdeal.Value
import proofs.«131722_j5695126634849_2_alg».proof.Proof.BlockRead
import Idealize.ShloMosaic.Lib.StableHlo.Run

noncomputable section

namespace Cert.KernelIdeal.KernelFrames

open Cert.KernelIdeal Cert.KernelIdeal.Gen
open Idealize.ShloMosaic Idealize.ShloMosaic.TcCoe Idealize.SL.Sem Idealize.ShloMosaic.StableHlo
open Idealize.ShloMosaic.Pipeline (Dat)
open Idealize.ShloMosaic.ValueIdx Frames

variable {F : FTy → Type} [FloatOps F]
variable (m : (ℓ : Loc nD τ sig) → Buf (Elt F) ℓ) (ρ : Dev nD → PrngReg)

/-! ## The signal in chunks -/

/-- The array the region reads is the argument re-laid in chunks. -/
theorem chunked_eq (c : Dev nD) :
    (V m c main_v0 : S16x6000x160.Idx → Elt F .f32)
      = shapeCast S16x6000x160 (m ((c : Thread nD τ).loc main_arg0)) shapeCasts_S16x1x960000_S16x6000x160 := by
  dsimp only [V, hostOps0]
  after_results
  rfl

/-- Sample r of chunk k of row b is sample 160·k + r of row b of the signal. -/
theorem chunk_apply (c : Dev nD) (k : S16x6000x160.Idx) :
    (V m c main_v0 : S16x6000x160.Idx → Elt F .f32) k
      = (m ((c : Thread nD τ).loc main_arg0) : S16x1x960000.Idx → Elt F .f32)
          (ix3 (⟨(k 0).val, lt0 k⟩ : Fin 16) (0 : Fin 1)
            (⟨160 * (k 1).val + (k 2).val, by have := lt1 k; have := lt2 k; omega⟩ : Fin 960000)) := by
  have h0 : (k 0).val < 16 := lt0 k
  have h1 : (k 1).val < 6000 := lt1 k
  have h2 : (k 2).val < 160 := lt2 k
  rw [chunked_eq]
  exact shapeCast_apply _ _ k _
    (by show (S16x1x960000.rowMajor _).val = (S16x6000x160.rowMajor k).val
        rw [Shape.rowMajor_val_three, Shape.rowMajor_val_three]
        show ((k 0).val * 1 + 0) * 960000 + (160 * (k 1).val + (k 2).val) = ((k 0).val * 6000 + (k 1).val) * 160 + (k 2).val
        omega)

/-! ## From the blocks to the array -/

/-- The printed index maps over the 16 grid points: point b's input block is row b's chunks, its output block is row b
    of the framed array, and the other block indices are zero. -/
theorem idx_facts : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0
    ∧ win0_1.index t (0 : Fin 3) = t.val :=
  (by decide +kernel : ∀ t : Fin grid0.N, _)

/-- WHAT POINT b WRITES BACK is row b of the framed signal. -/
theorem flushed_eq (c : Dev nD) (t : Fin cfg0.N) :
    (dats m 0 c).flushed 1 t
      = ((cfg0.win 1).blk t).view.read (Elt F)
          (framed (m ((c : Thread nD τ).loc main_arg0) : S16x1x960000.Idx → Elt F .f32)) := by
  rw [Value.flushed1_A]
  obtain ⟨e0, e1, e2, e3, e4, e5⟩ := idx_facts t
  refine funext fun (y : S1x400x5998.Idx) => ?_
  have hy0 : (y 0).val < 1 := lt0 y
  have hy1 : (y 1).val < 400 := lt1 y
  have hy2 : (y 2).val < 5998 := lt2 y
  show out0_A_1 c (grid0.coords t) (ms0_0 t) (hs0_0 t) (ms0_1 t) (hs0_1 t) (iblk m c 0 t) y
    = (m ((c : Thread nD τ).loc main_arg0) : S16x1x960000.Idx → Elt F .f32) (pos (((cfg0.win 1).blk t).view.emb y))
  refine (Block.out_apply (F := F) c (grid0.coords t) (ms0_0 t) (hs0_0 t) (ms0_1 t) (hs0_1 t) (iblk m c 0 t) y).trans ?_
  show (V m c main_v0 : S16x6000x160.Idx → Elt F .f32) (((cfg0.win 0).blk t).view.emb (Block.chunkOf y)) = _
  refine (chunk_apply m c _).trans ?_
  congr 1
  funext a
  match a with
  | ⟨0, _⟩ =>
    apply Fin.ext
    show win0_0.index t (0 : Fin 3) * 1 + 1 * 0 = win0_1.index t (0 : Fin 3) * 1 + 1 * (y 0).val
    omega
  | ⟨1, _⟩ => rfl
  | ⟨2, _⟩ =>
    apply Fin.ext
    show 160 * (win0_0.index t (1 : Fin 3) * 6000 + 1 * ((y 2).val + (y 1).val / 160))
        + (win0_0.index t (2 : Fin 3) * 160 + 1 * ((y 1).val % 160))
      = 160 * (win0_1.index t (2 : Fin 3) * 5998 + 1 * (y 2).val) + (win0_1.index t (1 : Fin 3) * 400 + 1 * (y 1).val)
    omega

/-- An index of the framed array is in point b's block iff each coordinate is in the block's range on its axis. -/
theorem mem_blk (t : Fin cfg0.N) (i : S16x400x5998.Idx) :
    i ∈ ((cfg0.win 1).blk t).view.set ↔ ∀ a : Fin 3, win0_1.index t a * S1x400x5998.size a ≤ (i a).val
      ∧ (i a).val < win0_1.index t a * S1x400x5998.size a + S1x400x5998.size a := by
  show i ∈ ((View.whole main_v1).slice (win0_1.rect t)).set ↔ _
  rw [View.set_slice_whole, Rect.mem_set_unit]
  exact Iff.rfl

/-- Entry (b, i, t) of the framed array is in the block of grid point b. -/
theorem cover (i : S16x400x5998.Idx) :
    ∃ t : Fin cfg0.N, (cfg0.win 1).flush t = true ∧ i ∈ ((cfg0.win 1).blk t).view.set := by
  have h0 : (i 0).val < 16 := lt0 i
  have h1 : (i 1).val < 400 := lt1 i
  have h2 : (i 2).val < 5998 := lt2 i
  have hN : cfg0.N = 16 := N_0
  let t : Fin cfg0.N := ⟨(i 0).val, by rw [hN]; exact h0⟩
  have ht : t.val = (i 0).val := rfl
  obtain ⟨e0, e1, e2, e3, e4, e5⟩ := idx_facts t
  refine ⟨t, flush0_1 t, ?_⟩
  rw [mem_blk]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 400 ≤ (i 1).val ∧ (i 1).val < win0_1.index t (1 : Fin 3) * 400 + 400
    omega
  | ⟨2, _⟩ =>
    show win0_1.index t (2 : Fin 3) * 5998 ≤ (i 2).val ∧ (i 2).val < win0_1.index t (2 : Fin 3) * 5998 + 5998
    omega

/-- THE RESULT ARRAY after the run is the framed signal. -/
theorem final (c : Dev nD) :
    (dats m 0 c).arrAt 1 cfg0.N = framed (m ((c : Thread nD τ).loc main_arg0) : S16x1x960000.Idx → Elt F .f32) :=
  (dats m 0 c).arrAt_eq_of_cover 1 (framed (m ((c : Thread nD τ).loc main_arg0) : S16x1x960000.Idx → Elt F .f32))
    (fun t _ => flushed_eq m c t) cover

/-- The kernel's run: it ends with the result array at the framed signal and the signal unchanged. -/
theorem run : θ_run defs (onTc (τ := τ) (main (F := F))) ⟨m, fun _ => 0, ρ⟩ fun r => ∀ c : Dev nD,
      r.2.mem ((c : Thread nD τ).loc main_v1)
        = framed (m ((c : Thread nD τ).loc main_arg0) : S16x1x960000.Idx → Elt F .f32)
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.KernelFrames

end
-- ==== Proof.lean ====
/-
  Framing a signal: 16 rows of 960000 samples, cut into 5998 overlapping frames of 400 samples that start every 160
  samples, so that entry (b, i, t) of the result is sample 160·t + i of row b.

  The reference gathers: it builds the positions 160·t + i from two counters and reads the signal there. The kernel
  never gathers: it re-lays each row as 6000 chunks of 160 samples and, since 160·t + i = 160·(t + a) + r for
  i = 160·a + r, copies chunks a … a + 5997, transposed, into rows 160·a … of the result, for a = 0, 1, 2.
  Both are the same re-indexing of the signal, so the two results agree entry by entry for every signal: no
  arithmetic is done on the samples, and nothing is asked of them.

  Frames.lean states the framing function; GatherRead.lean reads the reference's gather at an index and its position
  word; ReferenceFrames.lean shows the reference is the framing function; BlockRead.lean reads what the kernel's body
  leaves in a block; KernelFrames.lean takes the blocks to the whole result array. Here the claims are assembled.
-/
import proofs.«131722_j5695126634849_2_alg».proof.Defs
import proofs.«131722_j5695126634849_2_alg».proof.Proof.Gen.Kernel
import proofs.«131722_j5695126634849_2_alg».proof.Proof.Gen.Kernel.Skeleton
import proofs.«131722_j5695126634849_2_alg».proof.Proof.Gen.Kernel.Launch
import proofs.«131722_j5695126634849_2_alg».proof.Proof.Gen.Kernel.Points
import proofs.«131722_j5695126634849_2_alg».proof.Proof.Gen.Kernel.Frame
import proofs.«131722_j5695126634849_2_alg».proof.Proof.Gen.KernelIdeal
import proofs.«131722_j5695126634849_2_alg».proof.Proof.Gen.KernelIdeal.Skeleton
import proofs.«131722_j5695126634849_2_alg».proof.Proof.Gen.KernelIdeal.Launch
import proofs.«131722_j5695126634849_2_alg».proof.Proof.Gen.KernelIdeal.Points
import proofs.«131722_j5695126634849_2_alg».proof.Proof.Gen.KernelIdeal.Frame
import proofs.«131722_j5695126634849_2_alg».proof.Proof.Gen.ReferenceIdeal
import proofs.«131722_j5695126634849_2_alg».proof.Proof.Gen.Pre_finite_inputs
import proofs.«131722_j5695126634849_2_alg».proof.Proof.Gen.KernelIdeal.Value
import proofs.«131722_j5695126634849_2_alg».proof.Proof.Gen.ReferenceIdeal.Run
import proofs.«131722_j5695126634849_2_alg».proof.Proof.Gen.ReferenceIdeal.Read
import proofs.«131722_j5695126634849_2_alg».proof.Proof.ReferenceFrames
import proofs.«131722_j5695126634849_2_alg».proof.Proof.KernelFrames
import Idealize.ShloMosaic.Adequacy
import Idealize.ShloMosaic.Init

noncomputable section

namespace Cert.Proof

open Idealize.ShloMosaic Idealize.ShloMosaic.TcCoe Idealize.SL.Sem

/-- The kernel as printed runs and leaves the signal as it was. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten to read the kernel over the extended reals, so there is nothing to preserve. -/
theorem preserves : Cert.preserves_Kernel_KernelIdeal := trivial

/-- From signals that agree, the kernel and the reference both end with the framed signal. -/
theorem algebraic : Cert.algebraic_KernelIdeal_ReferenceIdeal := by
  intro m ρ m' ρ' _ hagree
  refine ⟨_, Cert.KernelIdeal.KernelFrames.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefFrames.reference_eq, hagree c]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
